-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x32 : Shape := ⟨3, ![128, 128, 32]⟩
abbrev S16x128x32 : Shape := ⟨3, ![16, 128, 32]⟩
abbrev S16x128 : Shape := ⟨2, ![16, 128]⟩
abbrev S128x128 : Shape := ⟨2, ![128, 128]⟩
abbrev S_ : Shape := ⟨0, ![]⟩

class Facts : Prop where
  bcast_S_S128x128x32 : S_.BroadcastsInDim S128x128x32 (![] : Fin 0 → Fin S128x128x32.rank)
  reducesTo_S128x128x32_S_d0_1_2 : S128x128x32.ReducesTo [0, 1, 2] S_
  h_S_ : 0 < S_.numel
  bcast_S_S16x128x32 : S_.BroadcastsInDim S16x128x32 (![] : Fin 0 → Fin S16x128x32.rank)
  reducesTo_S16x128x32_S_d0_1_2 : S16x128x32.ReducesTo [0, 1, 2] S_
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S128x128x32 .f32) (main_arg1 : FVec F S16x128x32 .f32) (main_arg2 : FVec F S16x128 .f32) (main_arg3 : IVec S128x128 32) (main_arg4 : IVec S16x128 32) : IVec S_ 1 :=
  let main_v0 : FVec F S128x128x32 .f32 := Host.absf main_arg0
  let main_cst : FVec F S_ .f32 := constant S_ .f32 0x7F800000#32
  let main_v1 : FVec F S128x128x32 .f32 := broadcastInDim S128x128x32 ![] bcast_S_S128x128x32 main_cst
  let main_v2 : IVec S128x128x32 1 := cmpf .olt main_v0 main_v1
  let main_c : IVec S_ 1 := constantI S_ 1 1#1
  let main_v3 : IVec S_ 1 := (fun x v => Host.reduce IntOp.andi x v reducesTo_S128x128x32_S_d0_1_2 h_S_) main_v2 main_c
  let main_v4 : FVec F S16x128x32 .f32 := Host.absf main_arg1
  let main_cst_0 : FVec F S_ .f32 := constant S_ .f32 0x7F800000#32
  let main_v5 : FVec F S16x128x32 .f32 := broadcastInDim S16x128x32 ![] bcast_S_S16x128x32 main_cst_0
  let main_v6 : IVec S16x128x32 1 := cmpf .olt main_v4 main_v5
  let main_c_1 : IVec S_ 1 := constantI S_ 1 1#1
  let main_v7 : IVec S_ 1 := (fun x v => Host.reduce IntOp.andi x v reducesTo_S16x128x32_S_d0_1_2 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  main_v13
-- ==== Kernel.lean ====
abbrev S128x128x32 : Shape := ⟨3, ![128, 128, 32]⟩
abbrev S16x128x32 : Shape := ⟨3, ![16, 128, 32]⟩
abbrev S16x128 : Shape := ⟨2, ![16, 128]⟩
abbrev S128x128 : Shape := ⟨2, ![128, 128]⟩
abbrev S128x16 : Shape := ⟨2, ![128, 16]⟩
abbrev S16x16 : Shape := ⟨2, ![16, 16]⟩
abbrev S2048x32 : Shape := ⟨2, ![2048, 32]⟩
abbrev S32x2048 : Shape := ⟨2, ![32, 2048]⟩
abbrev S2048x2048 : Shape := ⟨2, ![2048, 2048]⟩
abbrev S16x128x2048 : Shape := ⟨3, ![16, 128, 2048]⟩
abbrev S1x1x2048 : Shape := ⟨3, ![1, 1, 2048]⟩
abbrev S16x128x1 : Shape := ⟨3, ![16, 128, 1]⟩
abbrev S16x128x16x128 : Shape := ⟨4, ![16, 128, 16, 128]⟩
abbrev S16x128x16 : Shape := ⟨3, ![16, 128, 16]⟩

abbrev nBuf : Space → Nat
  | .hbm => 7
  | .vmem => 9
  | .smem => 0
  | _ => 0

abbrev bufTy : (tb : Table) → Fin (tcTables nBuf tb) → BufTy
  | .hbm, ⟨0, _⟩ => ⟨S128x128x32, .f32⟩
  | .hbm, ⟨1, _⟩ => ⟨S16x128x32, .f32⟩
  | .hbm, ⟨2, _⟩ => ⟨S16x128, .f32⟩
  | .hbm, ⟨3, _⟩ => ⟨S128x128, .i32⟩
  | .hbm, ⟨4, _⟩ => ⟨S16x128, .i32⟩
  | .hbm, ⟨5, _⟩ => ⟨S128x16, .f32⟩
  | .hbm, ⟨6, _⟩ => ⟨S16x128, .f32⟩
  | .local _ .vmem, ⟨0, _⟩ => ⟨S16x128x32, .f32⟩
  | .local _ .vmem, ⟨1, _⟩ => ⟨S16x128, .i32⟩
  | .local _ .vmem, ⟨2, _⟩ => ⟨S16x128, .f32⟩
  | .local _ .vmem, ⟨3, _⟩ => ⟨S16x128x32, .f32⟩
  | .local _ .vmem, ⟨4, _⟩ => ⟨S16x128x32, .f32⟩
  | .local _ .vmem, ⟨5, _⟩ => ⟨S16x128, .i32⟩
  | .local _ .vmem, ⟨6, _⟩ => ⟨S16x128, .i32⟩
  | .local _ .vmem, ⟨7, _⟩ => ⟨S16x16, .f32⟩
  | .local _ .vmem, ⟨8, _⟩ => ⟨S16x16, .f32⟩
  | _, _ => ⟨S128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S16x128x32_S16x128x32_0_0_0 : ∀ a, (![0, 0, 0] : Fin 3 → Nat) a + S16x128x32.size a ≤ S16x128x32.size a
  h_S16x128x32 : 0 < S16x128x32.numel
  shapeCasts_S16x128x32_S2048x32 : S16x128x32.ShapeCasts S2048x32
  bitsLt_bf16_f32 : FTy.bits .bf16 < FTy.bits .f32
  transposes_S2048x32_p1_0_S32x2048 : S2048x32.Transposes [1, 0] S32x2048
  shapeCasts_S2048x2048_S16x128x2048 : S2048x2048.ShapeCasts S16x128x2048
  inb_S16x128_S16x128_0_0 : ∀ a, (![0, 0] : Fin 2 → Nat) a + S16x128.size a ≤ S16x128.size a
  h_S16x128 : 0 < S16x128.numel
  shapeCasts_S16x128_S1x1x2048 : S16x128.ShapeCasts S1x1x2048
  shapeCasts_S16x128_S16x128x1 : S16x128.ShapeCasts S16x128x1
  broadcasts_S16x128x1_S16x128x2048 : S16x128x1.Broadcasts S16x128x2048
  broadcasts_S1x1x2048_S16x128x2048 : S1x1x2048.Broadcasts S16x128x2048
  shapeCasts_S16x128x2048_S16x128x16x128 : S16x128x2048.ShapeCasts S16x128x16x128
  reduces_S16x128x16x128_S16x128x16 : S16x128x16x128.Reduces [3] S16x128x16
  iota_S16x128_d1_w32 : S16x128.Iotas .tc 32 [1]
  natLt_1_32 : 1 < 32
  broadcasts_S16x128x1_S16x128x16 : S16x128x1.Broadcasts S16x128x16
  reduces_S16x128x16_S16x16 : S16x128x16.Reduces [1] S16x16
  transposes_S16x16_p1_0_S16x16 : S16x16.Transposes [1, 0] S16x16
  inb_S16x16_S16x16_0_0 : ∀ a, (![0, 0] : Fin 2 → Nat) a + S16x16.size a ≤ S16x16.size a
  h_S16x16 : 0 < S16x16.numel
  transposes_S128x16_S16x128_1_0 : S128x16.Transposes [1, 0] S16x128
  dot_S2048x32_S32x2048_S2048x2048_1_0_0_1_n_n_wf : DotDims.WF S2048x32 S32x2048 S2048x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x128x32.size a ≤ S16x128x32.size a
  hwx0_0 : ∀ i : grid0.Coords, EltTy.bits .f32 = 32 ∨ (Rect.block (s := S16x128x32) S16x128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .i32 = 32 ∨ (Rect.block (s := S16x128) S16x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x32.size a ≤ S128x128x32.size a
  hwx0_3 : ∀ i : grid0.Coords, EltTy.bits .f32 = 32 ∨ (Rect.block (s := S128x128x32) S16x128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S128x128.size a
  hwx0_4 : ∀ i : grid0.Coords, EltTy.bits .i32 = 32 ∨ (Rect.block (s := S128x128) S16x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S128x16.size a
  hwx0_5 : ∀ i : grid0.Coords, EltTy.bits .f32 = 32 ∨ (Rect.block (s := S128x16) S16x16.size (cc0_transform_5 i) (hinb0_5 i)).WholeWords (EltTy.packing .f32)

variable [Facts₀]

def dot_S2048x32_S32x2048_S2048x2048_1_0_0_1_n_n : DotDims S2048x32 S32x2048 S2048x2048 where
  lhsContracting := [1]
  rhsContracting := [0]
  lhsNonContracting := [0]
  rhsNonContracting := [1]
  lhsBatch := []
  rhsBatch := []
  wf := dot_S2048x32_S32x2048_S2048x2048_1_0_0_1_n_n_wf

abbrev win0_0 : Pipeline.Window sig grid0 :=
  Pipeline.Window.ofSpec (Memref.whole main_arg1) S16x128x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S16x128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x128x32 : Shape := ⟨3, ![128, 128, 32]⟩
abbrev S16x128x32 : Shape := ⟨3, ![16, 128, 32]⟩
abbrev S16x128 : Shape := ⟨2, ![16, 128]⟩
abbrev S128x128 : Shape := ⟨2, ![128, 128]⟩
abbrev S16x128x1x1 : Shape := ⟨4, ![16, 128, 1, 1]⟩
abbrev S1x1x128x128 : Shape := ⟨4, ![1, 1, 128, 128]⟩
abbrev S16x128x128x128 : Shape := ⟨4, ![16, 128, 128, 128]⟩
abbrev S_ : Shape := ⟨0, ![]⟩
abbrev S16x128x128 : Shape := ⟨3, ![16, 128, 128]⟩
abbrev S16x128x1 : Shape := ⟨3, ![16, 128, 1]⟩
abbrev S16x127x128 : Shape := ⟨3, ![16, 127, 128]⟩

abbrev nBuf : Space → Nat
  | .hbm => 23
  | .vmem => 0
  | .smem => 0
  | _ => 0

abbrev bufTy : (tb : Table) → Fin (tcTables nBuf tb) → BufTy
  | .hbm, ⟨0, _⟩ => ⟨S128x128x32, .f32⟩
  | .hbm, ⟨1, _⟩ => ⟨S16x128x32, .f32⟩
  | .hbm, ⟨2, _⟩ => ⟨S16x128, .f32⟩
  | .hbm, ⟨3, _⟩ => ⟨S128x128, .i32⟩
  | .hbm, ⟨4, _⟩ => ⟨S16x128, .i32⟩
  | .hbm, ⟨5, _⟩ => ⟨S16x128x1x1, .i32⟩
  | .hbm, ⟨6, _⟩ => ⟨S1x1x128x128, .i32⟩
  | .hbm, ⟨7, _⟩ => ⟨S16x128x128x128, .i32⟩
  | .hbm, ⟨8, _⟩ => ⟨S16x128x128x128, .i32⟩
  | .hbm, ⟨9, _⟩ => ⟨S16x128x128x128, .i1⟩
  | .hbm, ⟨10, _⟩ => ⟨S16x128x128x128, .f32⟩
  | .hbm, ⟨11, _⟩ => ⟨S_, .f32⟩
  | .hbm, ⟨12, _⟩ => ⟨S_, .f32⟩
  | .hbm, ⟨13, _⟩ => ⟨S16x128x128x128, .f32⟩
  | .hbm, ⟨14, _⟩ => ⟨S16x128x128x128, .f32⟩
  | .hbm, ⟨15, _⟩ => ⟨S_, .f32⟩
  | .hbm, ⟨16, _⟩ => ⟨S16x128x128, .f32⟩
  | .hbm, ⟨17, _⟩ => ⟨S16x128x1, .f32⟩
  | .hbm, ⟨18, _⟩ => ⟨S16x128x128, .f32⟩
  | .hbm, ⟨19, _⟩ => ⟨S16x128x128, .f32⟩
  | .hbm, ⟨20, _⟩ => ⟨S16x127x128, .f32⟩
  | .hbm, ⟨21, _⟩ => ⟨S_, .f32⟩
  | .hbm, ⟨22, _⟩ => ⟨S16x128, .f32⟩
  | _, _ => ⟨S128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S16x128_S16x128x1x1_0_1 : S16x128.BroadcastsInDim S16x128x1x1 (![0, 1] : Fin 2 → Fin S16x128x1x1.rank)
  bcast_S128x128_S1x1x128x128_2_3 : S128x128.BroadcastsInDim S1x1x128x128 (![2, 3] : Fin 2 → Fin S1x1x128x128.rank)
  bcast_S16x128x1x1_S16x128x128x128_0_1_2_3 : S16x128x1x1.BroadcastsInDim S16x128x128x128 (![0, 1, 2, 3] : Fin 4 → Fin S16x128x128x128.rank)
  bcast_S1x1x128x128_S16x128x128x128_0_1_2_3 : S1x1x128x128.BroadcastsInDim S16x128x128x128 (![0, 1, 2, 3] : Fin 4 → Fin S16x128x128x128.rank)
  bcast_S_S16x128x128x128 : S_.BroadcastsInDim S16x128x128x128 (![] : Fin 0 → Fin S16x128x128x128.rank)
  reducesTo_S16x128x128x128_S16x128x128_d3 : S16x128x128x128.ReducesTo [3] S16x128x128
  h_S_ : 0 < S_.numel
  bcast_S16x128_S16x128x1_0_1 : S16x128.BroadcastsInDim S16x128x1 (![0, 1] : Fin 2 → Fin S16x128x1.rank)
  bcast_S16x128x1_S16x128x128_0_1_2 : S16x128x1.BroadcastsInDim S16x128x128 (![0, 1, 2] : Fin 3 → Fin S16x128x128.rank)
  slices_S16x128x128_S16x127x128_0_1_0 : S16x128x128.Slices ![0, 1, 0] S16x127x128
  reducesTo_S16x127x128_S16x128_d1 : S16x127x128.ReducesTo [1] S16x128
  dot_S16x128x32_S128x128x32_S16x128x128x128_2_2_01_01_n_n_wf : DotDims.WF S16x128x32 S128x128x32 S16x128x128x128 [2] [2] [0, 1] [0, 1] [] []

variable [Facts₀]

def dot_S16x128x32_S128x128x32_S16x128x128x128_2_2_01_01_n_n : DotDims S16x128x32 S128x128x32 S16x128x128x128 where
  lhsContracting := [2]
  rhsContracting := [2]
  lhsNonContracting := [0, 1]
  rhsNonContracting := [0, 1]
  lhsBatch := []
  rhsBatch := []
  wf := dot_S16x128x32_S128x128x32_S16x128x128x128_2_2_01_01_n_n_wf

class Facts : Prop extends Facts₀ where

variable [Facts]
-- ==== Proof.MaxSim.lean ====
/-
  Late-interaction scoring with an exact-match filter, as one function of the argument arrays.

  For a query token (q, i) and a document token (n, j) the similarity is the inner product of their 32 features;
  it counts only where the two token ids agree and is replaced by zero elsewhere; the best gated similarity of
  query token (q, i) in document n is the maximum over j, starting from minus infinity; and the score of the pair
  (q, n) is the sum, over the query positions after the first, of that maximum times the query mask at (q, i).

  Two spellings of the last sum are stated here, with the law that joins them: the sum over positions 1..127,
  and the sum over all 128 positions in which position i carries the extra factor [i ≥ 1] (the word 0 or 1 read
  as a number). The two agree on every extended real, because a product with zero is zero and a product with one
  is the other factor there too; no finiteness is needed.

  The number of documents is a parameter: the score of (q, n) reads document n's row only (`scoreAll_congr`), so
  the scores of a group of consecutive documents are the corresponding rows of the scores of all of them.
-/
import Idealize.ShloMosaic.PureOps.Ideal
import Idealize.ShloMosaic.PureOps.Ideal.Laws
import Idealize.ShloMosaic.Lib.ValueIdx

noncomputable section

open scoped BigOperators

namespace Cert.MaxSim

open Idealize.ShloMosaic Idealize.ShloMosaic.ValueIdx

section Spec

variable {nd : Nat} (D : (⟨3, ![nd, 128, 32]⟩ : Shape).Idx → EReal) (Q : (⟨3, ![16, 128, 32]⟩ : Shape).Idx → EReal)
  (M : (⟨2, ![16, 128]⟩ : Shape).Idx → EReal)
  (dI : (⟨2, ![nd, 128]⟩ : Shape).Idx → BitVec 32) (qI : (⟨2, ![16, 128]⟩ : Shape).Idx → BitVec 32)

/-- The similarity of query token (q, i) and document token (n, j): the inner product over the 32 features. -/
def sim (q : Fin 16) (i : Fin 128) (n : Fin nd) (j : Fin 128) : EReal :=
  ∑ k : Fin 32, Q (ix3 q i k) * D (ix3 n j k)

/-- The similarity where the two token ids are the same word, zero elsewhere. -/
def gated (q : Fin 16) (i : Fin 128) (n : Fin nd) (j : Fin 128) : EReal :=
  Scalar.select (IntOp.cmpi .eq (qI (ix2 q i)) (dI (ix2 n j))) (sim D Q q i n j) (Ideal.ofBits .f32 0x00000000#32)

/-- The best gated similarity of query token (q, i) among the 128 tokens of document n, from minus infinity. -/
def best (q : Fin 16) (i : Fin 128) (n : Fin nd) : EReal :=
  (Finset.univ : Finset (Fin 128)).fold max (Ideal.ofBits .f32 0xFF800000#32) (fun j => gated D Q dI qI q i n j)

/-- The score of query q against document n: the masked sum of the best similarities over positions 1..127. -/
def score : (⟨2, ![16, nd]⟩ : Shape).Idx → EReal :=
  fun y => ∑ i : Fin 127, best D Q dI qI (y 0) i.succ (y 1) * M (ix2 (y 0) i.succ)

/-- The indicator of "position i is not the first", as the number a signed conversion of the widened
    comparison bit gives. -/
def notFirst (i : Fin 128) : EReal :=
  Scalar.sitofp (F := Ideal) .f32 ((IntOp.cmpi .sge (BitVec.ofNat 32 i.val) 1#32).setWidth 32)

/-- The same score with documents on the first axis, as a sum over ALL positions weighted by that indicator. -/
def scoreAll : (⟨2, ![nd, 16]⟩ : Shape).Idx → EReal :=
  fun z => ∑ i : Fin 128, best D Q dI qI (z 1) i (z 0) * (M (ix2 (z 1) i) * notFirst i)

theorem notFirst_zero : notFirst 0 = 0 := by
  have h : ((IntOp.cmpi .sge (BitVec.ofNat 32 (0 : Fin 128).val) 1#32).setWidth 32) = 0#32 := by decide
  unfold notFirst
  rw [h, Ideal.scalar_sitofp_def]
  simp

theorem notFirst_succ (i : Fin 127) : notFirst i.succ = 1 := by
  have h : ∀ i : Fin 127, ((IntOp.cmpi .sge (BitVec.ofNat 32 (i.succ).val) 1#32).setWidth 32) = 1#32 := by decide +kernel
  unfold notFirst
  rw [h i, Ideal.scalar_sitofp_def]
  simp

/-- THE LAW: the weighted sum over all positions is the sum over the positions after the first. -/
theorem scoreAll_eq_score (n : Fin nd) (q : Fin 16) :
    scoreAll D Q M dI qI (ix2 n q) = score D Q M dI qI (ix2 q n) := by
  show ∑ i : Fin 128, best D Q dI qI q i n * (M (ix2 q i) * notFirst i)
    = ∑ i : Fin 127, best D Q dI qI q i.succ n * M (ix2 q i.succ)
  rw [Fin.sum_univ_succ, notFirst_zero, mul_zero, mul_zero, zero_add]
  refine Finset.sum_congr rfl fun i _ => ?_
  rw [notFirst_succ, mul_one]

end Spec

/-- The weighted score of (n, q) reads document n's features and ids only: two families of documents that agree
    on one row (row n of the first, row n' of the second) have the same score there. -/
theorem scoreAll_congr {nd nd' : Nat} (D : (⟨3, ![nd, 128, 32]⟩ : Shape).Idx → EReal) (D' : (⟨3, ![nd', 128, 32]⟩ : Shape).Idx → EReal)
    (Q : (⟨3, ![16, 128, 32]⟩ : Shape).Idx → EReal) (M : (⟨2, ![16, 128]⟩ : Shape).Idx → EReal)
    (dI : (⟨2, ![nd, 128]⟩ : Shape).Idx → BitVec 32) (dI' : (⟨2, ![nd', 128]⟩ : Shape).Idx → BitVec 32)
    (qI : (⟨2, ![16, 128]⟩ : Shape).Idx → BitVec 32) (n : Fin nd) (n' : Fin nd')
    (hD : ∀ (j : Fin 128) (k : Fin 32), D (ix3 n j k) = D' (ix3 n' j k)) (hI : ∀ j : Fin 128, dI (ix2 n j) = dI' (ix2 n' j))
    (q : Fin 16) : scoreAll D Q M dI qI (ix2 n q) = scoreAll D' Q M dI' qI (ix2 n' q) := by
  show ∑ i : Fin 128, best D Q dI qI q i n * (M (ix2 q i) * notFirst i)
    = ∑ i : Fin 128, best D' Q dI' qI q i n' * (M (ix2 q i) * notFirst i)
  refine Finset.sum_congr rfl fun i _ => ?_
  refine congrArg (· * _) ?_
  unfold best
  refine Finset.fold_congr fun j _ => ?_
  unfold gated sim
  rw [hI j]
  refine congrArg (fun s => Scalar.select _ s _) ?_
  exact Finset.sum_congr rfl fun k _ => by rw [hD j k]

end Cert.MaxSim

end
-- ==== Proof.ReferenceScore.lean ====
/-
  The reference computes the score.

  Read one operation at a time, the reference's result at (q, n) is the zero word plus the sum over the 127
  positions k of the product at (q, 1 + k, n) of the row maximum and the mask; the row maximum at (q, i, n) is
  the fold of max from minus infinity over the last axis of the gated similarity, whose element at (q, i, n, j)
  is the contraction over the 32 features where the ids at (q, i) and (n, j) agree, and the zero word elsewhere.
  That is `MaxSim.score` word for word once the composed index functions are named by coordinates.
-/
import proofs.«169180_j16973710754315_2_alg».proof.Proof.Gen.ReferenceIdeal.Read
import proofs.«169180_j16973710754315_2_alg».proof.Proof.MaxSim
import Idealize.ShloMosaic.PureOps.Reduce

noncomputable section

open scoped BigOperators

namespace Cert.ReferenceIdeal.Score

open Cert.ReferenceIdeal Cert.ReferenceIdeal.Gen Cert.ReferenceIdeal.Read Idealize.ShloMosaic Idealize.ShloMosaic.ValueIdx

variable (x0 : (⟨S128x128x32, .f32⟩ : BufTy).Contents (Elt Ideal)) (x1 : (⟨S16x128x32, .f32⟩ : BufTy).Contents (Elt Ideal))
  (x2 : (⟨S16x128, .f32⟩ : BufTy).Contents (Elt Ideal))
  (x3 : (⟨S128x128, .i32⟩ : BufTy).Contents (Elt Ideal)) (x4 : (⟨S16x128, .i32⟩ : BufTy).Contents (Elt Ideal))

/-- The gated similarity, read at (q, i, n, j). -/
theorem gated_apply (q : Fin 16) (i : Fin 128) (n : Fin 128) (j : Fin 128) :
    val_main_v6 (F := Ideal) x0 x1 x3 x4 (ix4 q i n j) = MaxSim.gated (nd := 128) x0 x1 x3 x4 q i n j := by
  have e0 : idx_main_v0 (idx_main_v2 (ix4 q i n j)) = ix2 q i := funext fun a => Fin.ext (by
    match a with
    | ⟨0, _⟩ => rfl
    | ⟨1, _⟩ => rfl)
  have e1 : idx_main_v1 (idx_main_v3 (ix4 q i n j)) = ix2 n j := funext fun a => Fin.ext (by
    match a with
    | ⟨0, _⟩ => rfl
    | ⟨1, _⟩ => rfl)
  have el : ∀ k : Fin 32, lidx_main_v5 (ix4 q i n j) k = ix3 q i k := fun k => funext fun a => Fin.ext (by
    match a with
    | ⟨0, _⟩ => rfl
    | ⟨1, _⟩ => rfl
    | ⟨2, _⟩ => rfl)
  have er : ∀ k : Fin 32, ridx_main_v5 (ix4 q i n j) k = ix3 n j k := fun k => funext fun a => Fin.ext (by
    match a with
    | ⟨0, _⟩ => rfl
    | ⟨1, _⟩ => rfl
    | ⟨2, _⟩ => rfl)
  rw [val_main_v6_apply, val_main_v4_apply, val_main_v2_apply, val_main_v0_apply, val_main_v3_apply, val_main_v1_apply,
    val_main_v5_apply, val_main_call0_v1_apply, val_main_call0_v0_apply, val_main_cst_apply, e0, e1]
  simp only [el, er]
  rfl

/-- The row maximum, read at (q, i, n): the fold of max over the document's tokens. -/
theorem best_apply (q : Fin 16) (i : Fin 128) (n : Fin 128) :
    val_main_v7 (F := Ideal) x0 x1 x3 x4 (ix3 q i n) = MaxSim.best (nd := 128) x0 x1 x3 x4 q i n := by
  have hR : S16x128x128x128.Reduces [3] S16x128x128 := by decide
  unfold val_main_v7
  rw [Host.reduce_eq_fold_single FloatOps.maximumf _ _ reducesTo_S16x128x128x128_S16x128x128_d3 hR h_S_]
  show (Finset.univ : Finset (Fin 128)).fold max (Ideal.ofBits .f32 0xFF800000#32)
    (fun j : Fin 128 => val_main_v6 (F := Ideal) x0 x1 x3 x4 (hR.lift (ix3 q i n) j)) = _
  unfold MaxSim.best
  refine Finset.fold_congr fun j _ => ?_
  have e : hR.lift (ix3 q i n) j = ix4 q i n j := funext fun a => Fin.ext (by
    match a with
    | ⟨0, _⟩ => rfl
    | ⟨1, _⟩ => rfl
    | ⟨2, _⟩ => rfl
    | ⟨3, _⟩ => rfl)
  rw [e]
  exact gated_apply x0 x1 x3 x4 q i n j

/-- THE REFERENCE'S RESULT is the score. -/
theorem result_eq : val_main_v12 (F := Ideal) x0 x1 x2 x3 x4 = MaxSim.score (nd := 128) x0 x1 x2 x3 x4 := by
  funext y
  obtain ⟨q, n, rfl⟩ : ∃ (q : Fin 16) (n : Fin 128), y = ix2 q n := ⟨y 0, y 1, eq_ix2 y⟩
  rw [val_main_v12_apply, val_main_cst_1_apply]
  show Ideal.ofBits .f32 0x00000000#32 + _ = _
  rw [Ideal.ofBits_zero_f32, zero_add]
  unfold MaxSim.score
  refine Finset.sum_congr rfl fun k _ => ?_
  have e1 : idx_main_v11 (idx_main_v12 (ix2 q n) k) = ix3 q k.succ n := funext fun a => Fin.ext (by
    match a with
    | ⟨0, _⟩ => rfl
    | ⟨1, _⟩ => show 1 + k.val = k.val + 1; omega
    | ⟨2, _⟩ => rfl)
  have e2 : idx_main_v8 (idx_main_v9 (ix3 q k.succ n)) = ix2 q k.succ := funext fun a => Fin.ext (by
    match a with
    | ⟨0, _⟩ => rfl
    | ⟨1, _⟩ => rfl)
  rw [val_main_v11_apply, val_main_v10_apply, val_main_v9_apply, val_main_v8_apply, e1, e2, best_apply]
  rfl

end Cert.ReferenceIdeal.Score

end
-- ==== Proof.Body.lean ====
/-
  What the kernel body stores at one grid point, read at an index.

  The body works on a group of 16 documents. It flattens the query tokens (q, i) to rows q·128 + i and the group's
  document tokens (n, j) to columns n·128 + j, takes all 2048 × 2048 inner products over the 32 features in one
  matrix product into a zero accumulator (the roundings on the way in are the identity on extended reals), gates
  them by equality of token ids, splits the columns back into (n, j), takes the maximum over j from minus
  infinity, multiplies by the mask times [i ≥ 1], sums over i, and stores the transpose. Stage by stage below,
  each stage read at an index; together: the stored block at (n, q) is `MaxSim.scoreAll` of the loaded blocks.
-/
import proofs.«169180_j16973710754315_2_alg».proof.Proof.Gen.KernelIdeal.Skeleton
import proofs.«169180_j16973710754315_2_alg».proof.Proof.MaxSim
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Token j of row p of a 16-row group, flattened: p·128 + j. -/
def tok (p : Fin 16) (j : Fin 128) : Fin 2048 := ⟨p.val * 128 + j.val, by have := p.isLt; have := j.isLt; omega⟩

theorem tok_val (p : Fin 16) (j : Fin 128) : (tok p j).val = p.val * 128 + j.val := rfl

/-! ## Layout: a [16,128] array kept as a column and spread along a new last axis -/

/-- [16,128] viewed [16,128,1] and broadcast to [16,128,b] reads (q, i) at every (q, i, c). -/
theorem keepCol_apply {α : Type} {b : Nat} (x : (⟨2, ![16, 128]⟩ : Shape).Idx → α)
    (h : (⟨2, ![16, 128]⟩ : Shape).ShapeCasts ⟨3, ![16, 128, 1]⟩)
    (h' : (⟨3, ![16, 128, 1]⟩ : Shape).Broadcasts ⟨3, ![16, 128, b]⟩) (q : Fin 16) (i : Fin 128) (c : Fin b) :
    broadcastTo ⟨3, ![16, 128, b]⟩ (shapeCast ⟨3, ![16, 128, 1]⟩ x h) h' (ix3 q i c) = x (ix2 q i) := by
  refine (broadcastTo_apply _ h' (ix3 q i c) (ix3 q i (0 : Fin 1)) (fun a => ?_)).trans ?_
  · match a with
    | ⟨0, _⟩ => show q.val = if (16 : Nat) = 1 then 0 else q.val; rw [if_neg (by decide)]
    | ⟨1, _⟩ => show i.val = if (128 : Nat) = 1 then 0 else i.val; rw [if_neg (by decide)]
    | ⟨2, _⟩ => show 0 = if (1 : Nat) = 1 then 0 else c.val; rw [if_pos rfl]
  · refine shapeCast_apply x h (ix3 q i (0 : Fin 1)) (ix2 q i) ?_
    rw [Shape.rowMajor_val_two, Shape.rowMajor_val_three]
    show q.val * 128 + i.val = (q.val * 128 + i.val) * 1 + 0
    omega

/-- [16,128] flattened to one row [1,1,2048] and broadcast to [16,128,2048] reads (n, j) at every (q, i, n·128 + j). -/
theorem flatRow_apply {α : Type} (x : (⟨2, ![16, 128]⟩ : Shape).Idx → α)
    (h : (⟨2, ![16, 128]⟩ : Shape).ShapeCasts ⟨3, ![1, 1, 2048]⟩)
    (h' : (⟨3, ![1, 1, 2048]⟩ : Shape).Broadcasts ⟨3, ![16, 128, 2048]⟩) (q : Fin 16) (i : Fin 128) (n : Fin 16) (j : Fin 128) :
    broadcastTo ⟨3, ![16, 128, 2048]⟩ (shapeCast ⟨3, ![1, 1, 2048]⟩ x h) h' (ix3 q i (tok n j)) = x (ix2 n j) := by
  refine (broadcastTo_apply _ h' (ix3 q i (tok n j)) (ix3 (0 : Fin 1) (0 : Fin 1) (tok n j)) (fun a => ?_)).trans ?_
  · match a with
    | ⟨0, _⟩ => show 0 = if (1 : Nat) = 1 then 0 else q.val; rw [if_pos rfl]
    | ⟨1, _⟩ => show 0 = if (1 : Nat) = 1 then 0 else i.val; rw [if_pos rfl]
    | ⟨2, _⟩ => show (tok n j).val = if (2048 : Nat) = 1 then 0 else (tok n j).val; rw [if_neg (by decide)]
  · refine shapeCast_apply x h (ix3 (0 : Fin 1) (0 : Fin 1) (tok n j)) (ix2 n j) ?_
    rw [Shape.rowMajor_val_two, Shape.rowMajor_val_three]
    show n.val * 128 + j.val = (0 * 1 + 0) * 2048 + (n.val * 128 + j.val)
    omega

/-! ## The matrix product's operand indices -/

abbrev DD := dot_S2048x32_S32x2048_S2048x2048_1_0_0_1_n_n

theorem lhs0 (y : S2048x2048.Idx) (k : DD.contr.Idx) : (DD.lhsIdx y k 0).val = (y 0).val := by
  unfold DotDims.lhsIdx
  rw [dif_neg (show ¬(0 : Fin S2048x32.rank) ∈ DD.lhsBatch by decide), dif_pos (show (0 : Fin S2048x32.rank) ∈ DD.lhsNonContracting by decide)]
  rfl
theorem lhs1 (y : S2048x2048.Idx) (k : DD.contr.Idx) : (DD.lhsIdx y k 1).val = (k ⟨0, by decide⟩).val :=
  DD.lhsIdx_val_of_single rfl y k
theorem rhs0 (y : S2048x2048.Idx) (k : DD.contr.Idx) : (DD.rhsIdx y k 0).val = (k ⟨0, by decide⟩).val :=
  DD.rhsIdx_val_of_single rfl y k
theorem rhs1 (y : S2048x2048.Idx) (k : DD.contr.Idx) : (DD.rhsIdx y k 1).val = (y 1).val := by
  unfold DotDims.rhsIdx
  rw [dif_neg (show ¬(1 : Fin S32x2048.rank) ∈ DD.rhsBatch by decide), dif_pos (show (1 : Fin S32x2048.rank) ∈ DD.rhsNonContracting by decide)]
  rfl

/-! ## The two reductions over one axis, read at an index -/

theorem fmt32 : FKind.Formats .f32 := .inl rfl
theorem negInfWord : (0xFF800000#32 : BitVec 32) = FKind.maximumf.neutral .f32 fmt32 := rfl
theorem zeroWord : (0x00000000#32 : BitVec 32) = FKind.add.neutral .f32 fmt32 := rfl

/-- The maximum over the last axis of a [16,128,16,128] array, from minus infinity, at (q, i, n): the fold of max over j. -/
theorem maxOverTokens (src : FVec Ideal S16x128x16x128 .f32) (hφ : FKind.Formats .f32)
    (hacc : (0xFF800000#32 : BitVec 32) = FKind.maximumf.neutral .f32 hφ) (q : Fin 16) (i : Fin 128) (n : Fin 16) :
    multiReduction .maximumf [3] S16x128x16 src 0xFF800000#32 reduces_S16x128x16x128_S16x128x16 hφ hacc (ix3 q i n)
      = (Finset.univ : Finset (Fin 128)).fold max (Ideal.ofBits .f32 0xFF800000#32) (fun j => src (ix4 q i n j)) := by
  refine (Ideal.multiReduction_maximumf_single src 0xFF800000#32 reduces_S16x128x16x128_S16x128x16 hφ hacc (ix3 q i n)).trans ?_
  show (Finset.univ : Finset (Fin 128)).fold max (Ideal.ofBits .f32 0xFF800000#32)
    (fun j : Fin 128 => src (reduces_S16x128x16x128_S16x128x16.lift (ix3 q i n) j)) = _
  refine Finset.fold_congr fun j _ => congrArg src (funext fun a => Fin.ext (by
    match a with
    | ⟨0, _⟩ => rfl
    | ⟨1, _⟩ => rfl
    | ⟨2, _⟩ => rfl
    | ⟨3, _⟩ => rfl))

/-- The sum over the middle axis of a [16,128,16] array at (q, n): the sum over i. -/
theorem sumOverPositions (src : FVec Ideal S16x128x16 .f32) (hφ : FKind.Formats .f32)
    (hacc : (0x00000000#32 : BitVec 32) = FKind.add.neutral .f32 hφ) (q : Fin 16) (n : Fin 16) :
    multiReduction .add [1] S16x16 src 0x00000000#32 reduces_S16x128x16_S16x16 hφ hacc (ix2 q n)
      = ∑ i : Fin 128, src (ix3 q i n) := by
  refine (Ideal.multiReduction_add_single src 0x00000000#32 reduces_S16x128x16_S16x16 hφ hacc (ix2 q n)).trans ?_
  show ∑ i : Fin 128, src (reduces_S16x128x16_S16x16.lift (ix2 q n) i) = _
  refine Finset.sum_congr rfl fun i _ => congrArg src (funext fun a => Fin.ext (by
    match a with
    | ⟨0, _⟩ => rfl
    | ⟨1, _⟩ => rfl
    | ⟨2, _⟩ => rfl))

/-! ## The stages -/

variable (v0 v3 : FVec Ideal S16x128x32 .f32) (v9 v10 : IVec S16x128 32) (v20 : FVec Ideal S16x128 .f32)

/-- All similarities between the query tokens (rows) and the group's document tokens (columns). -/
def sims : FVec Ideal S2048x2048 .f32 :=
  matmul dot_S2048x32_S32x2048_S2048x2048_1_0_0_1_n_n none
    (truncf .bf16 (shapeCast S2048x32 v3 shapeCasts_S16x128x32_S2048x32) bitsLt_bf16_f32)
    (transpose S32x2048 [1, 0] (truncf .bf16 (shapeCast S2048x32 v0 shapeCasts_S16x128x32_S2048x32) bitsLt_bf16_f32) transposes_S2048x32_p1_0_S32x2048)
    (constant S2048x2048 .f32 0x00000000#32)

theorem sims_apply (q : Fin 16) (i : Fin 128) (n : Fin 16) (j : Fin 128) :
    sims v0 v3 (ix2 (tok q i) (tok n j)) = MaxSim.sim (nd := 16) v0 v3 q i n j := by
  unfold sims MaxSim.sim
  refine (Ideal.matmul_constant_zero_apply DD none _ _ _).trans ?_
  rw [← Equiv.sum_comp (contrEquiv1 DD 32 rfl rfl).symm]
  refine Finset.sum_congr rfl fun k _ => ?_
  have hk := contrEquiv1_symm_val DD 32 rfl rfl k
  have el : DD.lhsIdx (ix2 (tok q i) (tok n j)) ((contrEquiv1 DD 32 rfl rfl).symm k) = ix2 (tok q i) k := funext fun a => Fin.ext (by
    match a with
    | ⟨0, _⟩ => exact lhs0 _ _
    | ⟨1, _⟩ => exact (lhs1 _ _).trans hk)
  have er : DD.rhsIdx (ix2 (tok q i) (tok n j)) ((contrEquiv1 DD 32 rfl rfl).symm k) = ix2 k (tok n j) := funext fun a => Fin.ext (by
    match a with
    | ⟨0, _⟩ => exact (rhs0 _ _).trans hk
    | ⟨1, _⟩ => exact rhs1 _ _)
  rw [el, er]
  refine congrArg₂ (· * ·) ?_ ?_
  · show shapeCast S2048x32 v3 shapeCasts_S16x128x32_S2048x32 (ix2 (tok q i) k) = v3 (ix3 q i k)
    refine shapeCast_apply v3 shapeCasts_S16x128x32_S2048x32 (ix2 (tok q i) k) (ix3 q i k) ?_
    rw [Shape.rowMajor_val_two, Shape.rowMajor_val_three]
    rfl
  · refine (transpose_apply [1, 0] _ transposes_S2048x32_p1_0_S32x2048 (ix2 k (tok n j)) (ix2 (tok n j) k) (fun b => ?_)).trans ?_
    · match b with
      | ⟨0, _⟩ => rfl
      | ⟨1, _⟩ => rfl
    · show shapeCast S2048x32 v0 shapeCasts_S16x128x32_S2048x32 (ix2 (tok n j) k) = v0 (ix3 n j k)
      refine shapeCast_apply v0 shapeCasts_S16x128x32_S2048x32 (ix2 (tok n j) k) (ix3 n j k) ?_
      rw [Shape.rowMajor_val_two, Shape.rowMajor_val_three]
      rfl

/-- The similarities with rows split back into (q, i), kept where the token ids agree and zero elsewhere. -/
def gatedV : FVec Ideal S16x128x2048 .f32 :=
  select (cmpi .eq (broadcastTo S16x128x2048 (shapeCast S16x128x1 v10 shapeCasts_S16x128_S16x128x1) broadcasts_S16x128x1_S16x128x2048)
      (broadcastTo S16x128x2048 (shapeCast S1x1x2048 v9 shapeCasts_S16x128_S1x1x2048) broadcasts_S1x1x2048_S16x128x2048))
    (shapeCast S16x128x2048 (sims v0 v3) shapeCasts_S2048x2048_S16x128x2048)
    (broadcast S16x128x2048 (Scalar.ofBits .f32 0x00000000#32))

theorem gatedV_apply (q : Fin 16) (i : Fin 128) (n : Fin 16) (j : Fin 128) :
    gatedV v0 v3 v9 v10 (ix3 q i (tok n j)) = MaxSim.gated (nd := 16) v0 v3 v9 v10 q i n j := by
  have e : shapeCast S16x128x2048 (sims v0 v3) shapeCasts_S2048x2048_S16x128x2048 (ix3 q i (tok n j)) = sims v0 v3 (ix2 (tok q i) (tok n j)) := by
    refine shapeCast_apply (sims v0 v3) shapeCasts_S2048x2048_S16x128x2048 (ix3 q i (tok n j)) (ix2 (tok q i) (tok n j)) ?_
    rw [Shape.rowMajor_val_two, Shape.rowMajor_val_three]
    rfl
  unfold gatedV MaxSim.gated
  show Scalar.select (IntOp.cmpi .eq
      (broadcastTo S16x128x2048 (shapeCast S16x128x1 v10 shapeCasts_S16x128_S16x128x1) broadcasts_S16x128x1_S16x128x2048 (ix3 q i (tok n j)))
      (broadcastTo S16x128x2048 (shapeCast S1x1x2048 v9 shapeCasts_S16x128_S1x1x2048) broadcasts_S1x1x2048_S16x128x2048 (ix3 q i (tok n j))))
    (shapeCast S16x128x2048 (sims v0 v3) shapeCasts_S2048x2048_S16x128x2048 (ix3 q i (tok n j)))
    (Ideal.ofBits .f32 0x00000000#32) = _
  rw [keepCol_apply v10, flatRow_apply v9, e, sims_apply]

/-- The best gated similarity of each query token in each document of the group. -/
def bestV : FVec Ideal S16x128x16 .f32 :=
  multiReduction .maximumf [3] S16x128x16 (shapeCast S16x128x16x128 (gatedV v0 v3 v9 v10) shapeCasts_S16x128x2048_S16x128x16x128)
    0xFF800000#32 reduces_S16x128x16x128_S16x128x16 fmt32 negInfWord

theorem bestV_apply (q : Fin 16) (i : Fin 128) (n : Fin 16) :
    bestV v0 v3 v9 v10 (ix3 q i n) = MaxSim.best (nd := 16) v0 v3 v9 v10 q i n := by
  unfold bestV MaxSim.best
  refine (maxOverTokens (shapeCast S16x128x16x128 (gatedV v0 v3 v9 v10) shapeCasts_S16x128x2048_S16x128x16x128) fmt32 negInfWord q i n).trans ?_
  refine Finset.fold_congr fun j _ => ?_
  refine (shapeCast_apply (gatedV v0 v3 v9 v10) shapeCasts_S16x128x2048_S16x128x16x128 (ix4 q i n j) (ix3 q i (tok n j)) ?_).trans ?_
  · rw [Shape.rowMajor_val_three, Shape.rowMajor_val_four]
    show (q.val * 128 + i.val) * 2048 + (n.val * 128 + j.val) = ((q.val * 128 + i.val) * 16 + n.val) * 128 + j.val
    omega
  · exact gatedV_apply v0 v3 v9 v10 q i n j

/-- The mask with the first position switched off. -/
def maskV : FVec Ideal S16x128 .f32 :=
  mulf v20 (sitofp .f32 (extui 32 (cmpi .sge (iota .tc S16x128 32 [1] iota_S16x128_d1_w32) (broadcast S16x128 1#32)) natLt_1_32))

theorem maskV_apply (q : Fin 16) (i : Fin 128) : maskV v20 (ix2 q i) = v20 (ix2 q i) * MaxSim.notFirst i := by
  unfold maskV MaxSim.notFirst
  show v20 (ix2 q i) * Scalar.sitofp (F := Ideal) .f32
    ((IntOp.cmpi .sge (iota .tc S16x128 32 [1] iota_S16x128_d1_w32 (ix2 q i)) 1#32).setWidth 32) = _
  rw [iota_single_apply]

/-- The block the body stores: documents of the group on the first axis, queries on the second. -/
def outV : FVec Ideal S16x16 .f32 :=
  transpose S16x16 [1, 0]
    (multiReduction .add [1] S16x16
      (mulf (bestV v0 v3 v9 v10)
        (broadcastTo S16x128x16 (shapeCast S16x128x1 (maskV v20) shapeCasts_S16x128_S16x128x1) broadcasts_S16x128x1_S16x128x16))
      0x00000000#32 reduces_S16x128x16_S16x16 fmt32 zeroWord)
    transposes_S16x16_p1_0_S16x16

/-- The printed payload is the composition of the stages. -/
theorem pay_eq : k0_pay1 (F := Ideal) v0 v3 v9 v10 v20 = outV v0 v3 v9 v10 v20 := rfl

/-- THE BODY'S STORE, read at (n, q): the weighted score of the group's document n against query q. -/
theorem outV_apply (n : Fin 16) (q : Fin 16) :
    outV v0 v3 v9 v10 v20 (ix2 n q) = MaxSim.scoreAll (nd := 16) v0 v3 v20 v9 v10 (ix2 n q) := by
  show outV v0 v3 v9 v10 v20 (ix2 n q)
    = ∑ i : Fin 128, MaxSim.best (nd := 16) v0 v3 v9 v10 q i n * (v20 (ix2 q i) * MaxSim.notFirst i)
  unfold outV
  refine (transpose_apply [1, 0] _ transposes_S16x16_p1_0_S16x16 (ix2 n q) (ix2 q n) (fun b => ?_)).trans ?_
  · match b with
    | ⟨0, _⟩ => rfl
    | ⟨1, _⟩ => rfl
  refine (sumOverPositions (mulf (bestV v0 v3 v9 v10)
      (broadcastTo S16x128x16 (shapeCast S16x128x1 (maskV v20) shapeCasts_S16x128_S16x128x1) broadcasts_S16x128x1_S16x128x16))
    fmt32 zeroWord q n).trans ?_
  refine Finset.sum_congr rfl fun i _ => ?_
  rw [mulf_apply, bestV_apply, keepCol_apply (maskV v20), maskV_apply]

/-! ## The block as rows of the whole arrays -/

/-- Row n of the b-th group of 16 rows of a 128-row array. -/
def row (b : Nat) (hb : b ≤ 7) (n : Fin 16) : Fin 128 := ⟨b * 16 + n.val, by have := n.isLt; omega⟩

theorem row_val (b : Nat) (hb : b ≤ 7) (n : Fin 16) : (row b hb n).val = b * 16 + n.val := rfl

/-- When the loaded document-side blocks are rows 16·b.. of the whole document arrays and the loaded query-side
    blocks are the whole query arrays, the body's store at (n, q) is the weighted score of document 16·b + n
    against query q, computed from the whole arrays. -/
theorem pay_rows (D : FVec Ideal S128x128x32 .f32) (Q : FVec Ideal S16x128x32 .f32) (M : FVec Ideal S16x128 .f32)
    (dI : IVec S128x128 32) (qI : IVec S16x128 32)
    (b : Nat) (hb : b ≤ 7)
    (hD : ∀ (n : Fin 16) (j : Fin 128) (k : Fin 32), v0 (ix3 n j k) = D (ix3 (row b hb n) j k))
    (hQ : ∀ y, v3 y = Q y)
    (hI : ∀ (n : Fin 16) (j : Fin 128), v9 (ix2 n j) = dI (ix2 (row b hb n) j))
    (hqI : ∀ y, v10 y = qI y) (hM : ∀ y, v20 y = M y) (n q : Fin 16) :
    k0_pay1 (F := Ideal) v0 v3 v9 v10 v20 (ix2 n q) = MaxSim.scoreAll (nd := 128) D Q M dI qI (ix2 (row b hb n) q) := by
  obtain rfl : v3 = Q := funext hQ
  obtain rfl : v10 = qI := funext hqI
  obtain rfl : v20 = M := funext hM
  rw [pay_eq, outV_apply]
  exact MaxSim.scoreAll_congr v0 D v3 v20 v9 dI v10 n (row b hb n) (hD n) (hI n) q

end Cert.KernelIdeal.Body

end
-- ==== Proof.ScoreArray.lean ====
/-
  The region's output array after the run.

  The grid has 8 points. At the point whose block index is b, the output block is rows 16·b .. 16·b + 15 of the
  [128,16] array, the document-side inputs are the same 16 rows of their arrays, and the query-side inputs are the
  whole arrays. So what each point writes back is its 16 rows of ONE function of the argument arrays — the weighted
  score with documents on the first axis —, the 8 blocks cover the array, and the array ends holding that function.
-/
import proofs.«169180_j16973710754315_2_alg».proof.Proof.Gen.KernelIdeal.Frame
import proofs.«169180_j16973710754315_2_alg».proof.Proof.Body
import Idealize.ShloMosaic.Lib.Pipeline.Value

set_option maxRecDepth 16384

noncomputable section

open scoped BigOperators

namespace Cert.KernelIdeal.ScoreArray

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The weighted scores of all 128 documents against all 16 queries, documents first, of the argument arrays as
    the region finds them. -/
def scores (c : Dev nD) : S128x16.Idx → EReal :=
  MaxSim.scoreAll (nd := 128) (V m c main_arg0) (V m c main_arg1) (V m c main_arg2) (V m c main_arg3) (V m c main_arg4)

/-- The printed index maps, decided over the grid: the query-side windows stay at block 0, the document-side
    windows move with the output window along the first axis, and the output's block index is at most 7. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 2) ∧ win0_3.index t (1 : Fin 3) = 0 ∧ win0_3.index t (2 : Fin 3) = 0
    ∧ win0_4.index t (0 : Fin 2) = win0_5.index t (0 : Fin 2) ∧ win0_4.index t (1 : Fin 2) = 0
    ∧ win0_5.index t (0 : Fin 2) ≤ 7 ∧ win0_5.index t (1 : Fin 2) = 0 :=
  (by decide +kernel : ∀ t : Fin grid0.N, _)

/-- Every group of 16 rows is SOME point's output block. -/
theorem idx_onto : ∀ b : Fin 8, ∃ t : Fin cfg0.N, win0_5.index t = ![b.val, 0] :=
  (by decide +kernel : ∀ b : Fin 8, ∃ t : Fin grid0.N, win0_5.index t = ![b.val, 0])

/-- WHAT POINT t WRITES BACK is its block of `scores`. -/
theorem flushed_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  unfold out0_5
  rw [View.canon_unit_zero hz2]
  simp only [View.ld_unit_zero (S := S16x128x32) hz3, View.ld_unit_zero (S := S16x128) hz2]
  obtain ⟨a0, a1, a2, b0, b1, c0, c1, d0, d1, d2, e0, e1, f0, f1⟩ := idx_facts t
  funext y
  obtain ⟨n, q, rfl⟩ : ∃ (n : Fin 16) (q : Fin 16), y = ix2 n q := ⟨y 0, y 1, eq_ix2 y⟩
  show k0_pay1 (F := Ideal) (iblk m c 3 t) (iblk m c 0 t) (iblk m c 4 t) (iblk m c 1 t) (iblk m c 2 t) (ix2 n q)
    = scores m c (((cfg0.win 5).blk t).view.emb (ix2 n q))
  refine (Body.pay_rows (iblk m c 3 t) (iblk m c 0 t) (iblk m c 4 t) (iblk m c 1 t) (iblk m c 2 t)
    (V m c main_arg0) (V m c main_arg1) (V m c main_arg2) (V m c main_arg3) (V m c main_arg4)
    (win0_5.index t (0 : Fin 2)) f0 ?_ ?_ ?_ ?_ ?_ n q).trans ?_
  · intro n' j k
    show V m c main_arg0 (((cfg0.win 3).blk t).view.emb (ix3 n' j k)) = V m c main_arg0 (ix3 (Body.row _ f0 n') j k)
    refine congrArg _ (funext fun a => Fin.ext ?_)
    match a with
    | ⟨0, _⟩ => show win0_3.index t (0 : Fin 3) * 16 + 1 * n'.val = win0_5.index t (0 : Fin 2) * 16 + n'.val; omega
    | ⟨1, _⟩ => show win0_3.index t (1 : Fin 3) * 128 + 1 * j.val = j.val; omega
    | ⟨2, _⟩ => show win0_3.index t (2 : Fin 3) * 32 + 1 * k.val = k.val; omega
  · intro y
    show V m c main_arg1 (((cfg0.win 0).blk t).view.emb y) = V m c main_arg1 y
    refine congrArg _ (funext fun a => Fin.ext ?_)
    match a with
    | ⟨0, _⟩ => show win0_0.index t (0 : Fin 3) * 16 + 1 * (y 0).val = (y 0).val; omega
    | ⟨1, _⟩ => show win0_0.index t (1 : Fin 3) * 128 + 1 * (y 1).val = (y 1).val; omega
    | ⟨2, _⟩ => show win0_0.index t (2 : Fin 3) * 32 + 1 * (y 2).val = (y 2).val; omega
  · intro n' j
    show V m c main_arg3 (((cfg0.win 4).blk t).view.emb (ix2 n' j)) = V m c main_arg3 (ix2 (Body.row _ f0 n') j)
    refine congrArg _ (funext fun a => Fin.ext ?_)
    match a with
    | ⟨0, _⟩ => show win0_4.index t (0 : Fin 2) * 16 + 1 * n'.val = win0_5.index t (0 : Fin 2) * 16 + n'.val; omega
    | ⟨1, _⟩ => show win0_4.index t (1 : Fin 2) * 128 + 1 * j.val = j.val; omega
  · intro y
    show V m c main_arg4 (((cfg0.win 1).blk t).view.emb y) = V m c main_arg4 y
    refine congrArg _ (funext fun a => Fin.ext ?_)
    match a with
    | ⟨0, _⟩ => show win0_1.index t (0 : Fin 2) * 16 + 1 * (y 0).val = (y 0).val; omega
    | ⟨1, _⟩ => show win0_1.index t (1 : Fin 2) * 128 + 1 * (y 1).val = (y 1).val; omega
  · intro y
    show V m c main_arg2 (((cfg0.win 2).blk t).view.emb y) = V m c main_arg2 y
    refine congrArg _ (funext fun a => Fin.ext ?_)
    match a with
    | ⟨0, _⟩ => show win0_2.index t (0 : Fin 2) * 16 + 1 * (y 0).val = (y 0).val; omega
    | ⟨1, _⟩ => show win0_2.index t (1 : Fin 2) * 128 + 1 * (y 1).val = (y 1).val; omega
  · unfold scores
    refine congrArg _ (funext fun a => Fin.ext ?_)
    match a with
    | ⟨0, _⟩ => show win0_5.index t (0 : Fin 2) * 16 + n.val = win0_5.index t (0 : Fin 2) * 16 + 1 * n.val; omega
    | ⟨1, _⟩ => show q.val = win0_5.index t (1 : Fin 2) * 16 + 1 * q.val; omega

/-- An index of the array is in point t's block iff each coordinate is in the block's range on its axis. -/
theorem mem_blk (t : Fin cfg0.N) (i : S128x16.Idx) :
    i ∈ ((cfg0.win 5).blk t).view.set ↔ ∀ a : Fin 2, win0_5.index t a * S16x16.size a ≤ (i a).val ∧ (i a).val < win0_5.index t a * S16x16.size a + S16x16.size a := by
  show i ∈ ((View.whole main_v0).slice (win0_5.rect t)).set ↔ _
  rw [View.set_slice_whole, Rect.mem_set_unit]
  exact Iff.rfl

/-- Every index of the array is in some writing point's block: row r is in the block of group r / 16. -/
theorem cover (i : S128x16.Idx) :
    ∃ t : Fin cfg0.N, (cfg0.win 5).flush t = true ∧ i ∈ ((cfg0.win 5).blk t).view.set := by
  have hi0 : (i 0).val < 128 := (i 0).isLt
  have hi1 : (i 1).val < 16 := (i 1).isLt
  obtain ⟨t, ht⟩ := idx_onto ⟨(i 0).val / 16, by omega⟩
  have q0 : win0_5.index t (0 : Fin 2) = (i 0).val / 16 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 16 ≤ (i 1).val ∧ (i 1).val < win0_5.index t (1 : Fin 2) * 16 + 16; omega

/-- THE ARRAY after the run is `scores`. -/
theorem final (c : Dev nD) : (dats m 0 c).arrAt 5 cfg0.N = scores m c :=
  (dats m 0 c).arrAt_eq_of_cover 5 (scores m c) (fun t _ => flushed_eq m c t) (cover)

end Cert.KernelIdeal.ScoreArray

end
-- ==== Proof.Result.lean ====
/-
  The kernel program's result.

  After the region, the program transposes the region's [128,16] output array into its [16,128] result. The output
  array holds the weighted score with documents first (`ScoreArray.final`), so the result at (q, n) is that score
  at (n, q), which by the law of `MaxSim` is the score of query q against document n — the same function of the
  argument arrays the reference computes. The run below re-posts the generated frame run with the result named
  and the argument arrays unchanged.
-/
import proofs.«169180_j16973710754315_2_alg».proof.Proof.ScoreArray
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The result buffer is unscoped and is no window's array: the frame run leaves it as the operations after the
    region do. -/
theorem main_v1_rest : main_v1 ∈ Pipeline.restRefs sig (cfgs 0).spec :=
  Pipeline.mem_restRefs_of main_v1 rfl (by decide)

/-- The operations after the region leave the result at the transpose of the region's output array. -/
theorem tail_eq (c : Dev nD) :
    Pipeline.afterTail₀ cfgs (dats m) 0 (V0 m) [hostOps1] c main_v1
      = transpose S16x128 [1, 0] (ScoreArray.scores m c) transposes_S128x16_S16x128_1_0 := by
  unfold Pipeline.afterTail₀
  show StableHlo.after hostOps1 _ (Proc.devRef .tc main_v1) = _
  after_results
  refine congrArg (fun x => transpose S16x128 [1, 0] x transposes_S128x16_S16x128_1_0) ?_
  exact (Pipeline.withArrays_arr spec0 launch0.win.arr_inj c _ _ 5).trans (ScoreArray.final m c)

/-- The transposed weighted scores are the scores: at (q, n), the sum over the positions after the first. -/
theorem transposed_scores (c : Dev nD) :
    transpose S16x128 [1, 0] (ScoreArray.scores m c) transposes_S128x16_S16x128_1_0
      = MaxSim.score (nd := 128) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext y
  obtain ⟨q, n, rfl⟩ : ∃ (q : Fin 16) (n : Fin 128), y = ix2 q n := ⟨y 0, y 1, eq_ix2 y⟩
  refine (transpose_apply [1, 0] (ScoreArray.scores m c) transposes_S128x16_S16x128_1_0 (ix2 q n) (ix2 n q) (fun b => ?_)).trans ?_
  · match b with
    | ⟨0, _⟩ => rfl
    | ⟨1, _⟩ => rfl
  · unfold ScoreArray.scores
    rw [V_main_arg0, V_main_arg1, V_main_arg2, V_main_arg3, V_main_arg4]
    exact MaxSim.scoreAll_eq_score _ _ _ _ _ n q

/-- THE RUN: every weakly fair execution of the idealized kernel program terminates with its result at the score
    of the argument arrays, and the argument arrays unchanged. -/
theorem run : θ_run defs (onTc (τ := τ) (main (F := Ideal))) ⟨m, fun _ => 0, ρ⟩ (fun r => ∀ c : Dev nD,
      r.2.mem ((c.tc : Thread nD τ).loc main_v1)
        = MaxSim.score (nd := 128) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v1 main_v1_rest).trans ((tail_eq m c).trans (transposed_scores m c)),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 1).trans (((dats m 0 c).arrAt_in 1 rfl _).trans ((A_eq m c 1).trans (V_main_arg4 m c)))⟩)
    (run_main m ρ)

end Cert.KernelIdeal.Result

end
-- ==== Proof.lean ====
/-
  Late-interaction document scoring with an exact-match filter: a tiled kernel against its plain reference.

  For 16 queries and 128 documents of 128 tokens with 32 features each, the score of query q against document n is
      Σ_{i = 1..127}  mask[q, i] · max_j ( ⟨Q[q, i, ·], D[n, j, ·]⟩  if  qid[q, i] = did[n, j]  else  0 ),
  the maximum taken from minus infinity over the 128 tokens of the document.

  The reference computes it as written: the 4-index array of inner products, a select against zero on the equality
  of token ids, a maximum over j, a product with the mask, the slice that drops position 0, and a sum over i.

  The kernel takes the documents 16 at a time. For one group it forms all 2048 × 2048 inner products in one matrix
  product (rounding the operands to a narrower format first, which is the identity on extended reals), gates and
  maximises as above, multiplies by mask[q, i] · [i ≥ 1] instead of slicing, sums over ALL 128 positions, and writes
  the 16 × 16 block with documents on the first axis; the program then transposes the [128, 16] array.

  The two agree on every extended real: the extra summand at i = 0 is (something) · (mask · 0) = 0, the factor at
  i ≥ 1 is mask · 1 = mask, and a finite sum may be regrouped; so the finiteness of the inputs is never used.

  Modules: `MaxSim` states the score and that law; `ReferenceScore` reads the reference's run as the score;
  `Body` reads the kernel body's store at an index; `ScoreArray` gathers the 8 blocks into the output array;
  `Result` carries it through the transpose. The frames of the two kernel programs are the generated ones; the
  reference's frame is its generated run with the result dropped; the idealization rewrote nothing.
-/
import proofs.«169180_j16973710754315_2_alg».proof.Defs
import proofs.«169180_j16973710754315_2_alg».proof.Proof.Gen.Kernel
import proofs.«169180_j16973710754315_2_alg».proof.Proof.Gen.Kernel.Skeleton
import proofs.«169180_j16973710754315_2_alg».proof.Proof.Gen.Kernel.Launch
import proofs.«169180_j16973710754315_2_alg».proof.Proof.Gen.Kernel.Points
import proofs.«169180_j16973710754315_2_alg».proof.Proof.Gen.Kernel.Frame
import proofs.«169180_j16973710754315_2_alg».proof.Proof.Gen.KernelIdeal
import proofs.«169180_j16973710754315_2_alg».proof.Proof.Gen.KernelIdeal.Skeleton
import proofs.«169180_j16973710754315_2_alg».proof.Proof.Gen.KernelIdeal.Launch
import proofs.«169180_j16973710754315_2_alg».proof.Proof.Gen.KernelIdeal.Points
import proofs.«169180_j16973710754315_2_alg».proof.Proof.Gen.KernelIdeal.Frame
import proofs.«169180_j16973710754315_2_alg».proof.Proof.Gen.ReferenceIdeal
import proofs.«169180_j16973710754315_2_alg».proof.Proof.Gen.Pre_finite_inputs
import proofs.«169180_j16973710754315_2_alg».proof.Proof.Gen.ReferenceIdeal.Run
import proofs.«169180_j16973710754315_2_alg».proof.Proof.Gen.ReferenceIdeal.Read
import proofs.«169180_j16973710754315_2_alg».proof.Proof.ReferenceScore
import proofs.«169180_j16973710754315_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- Both idealized programs end with the score of the argument arrays: the kernel's by `Result.run`, the
    reference's by its generated run read as the score (`Score.result_eq`), from memories that agree on the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Score.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
